-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x4096 : Shape := ⟨2, ![512, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S512x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S512x4096 : Shape := ⟨2, ![512, 4096]⟩
abbrev S4096 : Shape := ⟨1, ![4096]⟩
abbrev S1x4096 : Shape := ⟨2, ![1, 4096]⟩
abbrev S1x512 : Shape := ⟨2, ![1, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S512x4096 : Shape := ⟨2, ![512, 4096]⟩
abbrev S4096 : Shape := ⟨1, ![4096]⟩
abbrev S4096x512 : Shape := ⟨2, ![4096, 512]⟩
abbrev S1x4096x1x512 : Shape := ⟨4, ![1, 4096, 1, 512]⟩
abbrev S1x4096x8x512 : Shape := ⟨4, ![1, 4096, 8, 512]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S4096, .f32⟩
  | .hbm, ⟨3, _⟩ => ⟨S4096x512, .f32⟩
  | .hbm, ⟨4, _⟩ => ⟨S1x4096x1x512, .f32⟩
  | .hbm, ⟨5, _⟩ => ⟨S1x4096x8x512, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S4096x512_S1x4096x1x512 : S4096x512.ShapeCasts S1x4096x1x512
  bcast_S1x4096x1x512_S1x4096x8x512_0_1_2_3 : S1x4096x1x512.BroadcastsInDim S1x4096x8x512 (![0, 1, 2, 3] : Fin 4 → Fin S1x4096x8x512.rank)
  shapeCasts_S1x4096x8x512_S4096x4096 : S1x4096x8x512.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S512x4096_S4096x512_1_1_0_0_n_n_wf : DotDims.WF S4096x4096 S512x4096 S4096x512 [1] [1] [0] [0] [] []

variable [Facts₀]

def dot_S4096x4096_S512x4096_S4096x512_1_1_0_0_n_n : DotDims S4096x4096 S512x4096 S4096x512 where
  lhsContracting := [1]
  rhsContracting := [1]
  lhsNonContracting := [0]
  rhsNonContracting := [0]
  lhsBatch := []
  rhsBatch := []
  wf := dot_S4096x4096_S512x4096_S4096x512_1_1_0_0_n_n_wf

class Facts : Prop extends Facts₀ where

variable [Facts]
-- ==== Proof.Body.lean ====
/-
  What each of the kernel body's two cases leaves behind, as pure terms of what it loaded.

  At a grid point whose second coordinate is 0 (the first case) the body stores the product of the x block by the
  w block into the scratch buffer, reads it back, and stores "scratch + bias row" into the output block: the scratch
  ends at the product term, the output at the sum term of that product and the bias block.
  At every other point (the second case) the scratch is only read: it keeps what the point before left, and the output
  block is "what the scratch held + bias row".
-/
import proofs.«165146_j57741540327891_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- Second case: the output block is the sum term of what the scratch held (xs) and the bias block (x2). -/
theorem out_later (c : Dev nD) (i : grid0.Coords) (a2 : Memref sig .tc .vmem S512x4096 .f32) (h2 : a2.IsWhole)
    (a3 : Memref sig .tc .vmem S512x4096 .f32) (h3 : a3.IsWhole) (a4 : Memref sig .tc .vmem S1x512 .f32) (h4 : a4.IsWhole)
    (a5 : Memref sig .tc .vmem S512x512 .f32) (h5 : a5.IsWhole) (a6 : Memref sig .tc .vmem S512x512 .f32) (h6 : a6.IsWhole)
    (hc : ¬cond0_0 i) (x0 x1 : Vec F S512x4096 .f32) (x2 : Vec F S1x512 .f32) (xs : Vec F S512x512 .f32) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero origin]
  simp only [View.readAt_eq_ld, h6.read_unread, h4.read_unread, View.ld_unit_zero (S := S512x512) origin,
    View.ld_unit_zero (S := S1x512) origin]

/-- First case: the scratch ends at the product term of the x block (x0) and the w block (x1). -/
theorem scratch_first (c : Dev nD) (i : grid0.Coords) (a2 : Memref sig .tc .vmem S512x4096 .f32) (h2 : a2.IsWhole)
    (a3 : Memref sig .tc .vmem S512x4096 .f32) (h3 : a3.IsWhole) (a4 : Memref sig .tc .vmem S1x512 .f32) (h4 : a4.IsWhole)
    (a5 : Memref sig .tc .vmem S512x512 .f32) (h5 : a5.IsWhole) (a6 : Memref sig .tc .vmem S512x512 .f32) (h6 : a6.IsWhole)
    (hc : cond0_0 i) (x0 x1 : Vec F S512x4096 .f32) (x2 : Vec F S1x512 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero origin]
  simp only [View.readAt_eq_ld, h2.read_unread, h3.read_unread, View.ld_unit_zero (S := S512x4096) origin]

/-- First case: the output block is the sum term of that product (read back from the scratch) and the bias block. -/
theorem out_first (c : Dev nD) (i : grid0.Coords) (a2 : Memref sig .tc .vmem S512x4096 .f32) (h2 : a2.IsWhole)
    (a3 : Memref sig .tc .vmem S512x4096 .f32) (h3 : a3.IsWhole) (a4 : Memref sig .tc .vmem S1x512 .f32) (h4 : a4.IsWhole)
    (a5 : Memref sig .tc .vmem S512x512 .f32) (h5 : a5.IsWhole) (a6 : Memref sig .tc .vmem S512x512 .f32) (h6 : a6.IsWhole)
    (hc : cond0_0 i) (x0 x1 : Vec F S512x4096 .f32) (x2 : Vec F S1x512 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero origin, View.readCov_unit_zero (S := S512x512) _ origin]
  simp only [View.readAt_eq_ld, h2.read_unread, h3.read_unread, h4.read_unread, View.ld_unit_zero (S := S512x4096) origin,
    View.ld_unit_zero (S := S1x512) origin]

end Cert.KernelIdeal.Body

end
-- ==== Proof.LibRowDot.lean ====
/-
  General facts, at the exact instance (floats as extended reals), about a matrix product whose two operands are both
  contracted along their SECOND axis (x of [M, K] against w of [N, K], the product x · wᵀ of [M, N]), read at an index
  written by its coordinates, and about one row broadcast down a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowDot

open Idealize.ShloMosaic Idealize.ShloMosaic.ValueIdx

variable {α : Type} {M K N : Nat}

/-- A matrix product of an [M, K] matrix by the transpose of an [N, K] matrix into the zero accumulator, read at
    (p, q): the sum over the contracted coordinate k of x(p, k) · w(q, k). The four hypotheses say which operand
    coordinate each of the product's index maps takes from the output index and which from the contraction index. -/
theorem matmul_zero_rr {φ₁ φ₂ : FTy} (D : DotDims ⟨2, ![M, K]⟩ ⟨2, ![N, K]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (i 1).val)
    (hr1 : ∀ (i : (⟨2, ![M, N]⟩ : Shape).Idx) (c : D.contr.Idx), (D.rhsIdx i c 1).val = (c ⟨0, by omega⟩).val)
    (prec : Option ContractPrecision)
    (x : FVec Ideal ⟨2, ![M, K]⟩ φ₁) (w : FVec Ideal ⟨2, ![N, K]⟩ φ₂) (p : Fin M) (q : Fin N) :
    matmul D prec x w (constant ⟨2, ![M, N]⟩ .f32 0x00000000#32) (ix2 p q) = ∑ k : Fin K, x (ix2 p k) * w (ix2 q k) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, N] row, cast to its own shape and broadcast down to [M, N], reads at (p, q) the row at (0, q). -/
theorem rowDown_rc (v : (⟨2, ![1, N]⟩ : Shape).Idx → α) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  exact broadcastTo_1b_ab_apply v h2 p q

end Cert.LibRowDot

end
-- ==== Proof.Payload.lean ====
/-
  The body's two arithmetic terms read at an entry (p, q) of the [512, 512] block, over the extended reals.

  The product term is the matrix product of the x block by the transpose of the w block into a zero accumulator
  (the narrowing of both operands to bf16 changes no value at the exact instance): its entry (p, q) is the sum over k
  of x0(p, k) · x1(q, k). The sum term adds the one bias row to every row: its entry (p, q) is v(p, q) + row(0, q).
-/
import proofs.«165146_j57741540327891_2_alg».proof.Proof.Gen.KernelIdeal.Skeleton
import proofs.«165146_j57741540327891_2_alg».proof.Proof.LibRowDot

noncomputable section

open Idealize.ShloMosaic Idealize.ShloMosaic.ValueIdx

namespace Cert.KernelIdeal.Payload

open Cert.KernelIdeal Cert.KernelIdeal.Gen

/-- The product's left index map takes its first coordinate from the output index's first coordinate. -/
theorem lhs_row (i : S512x512.Idx) (q : dot_S512x4096_S512x4096_S512x512_1_1_0_0_n_n.contr.Idx) : (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

/-- The product's right index map takes its first coordinate from the output index's second coordinate. -/
theorem rhs_row (i : S512x512.Idx) (q : dot_S512x4096_S512x4096_S512x512_1_1_0_0_n_n.contr.Idx) : (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

/-- The product term at (p, q): the sum over k of x0(p, k) · x1(q, k). -/
theorem product_rc (x0 x1 : Vec Ideal S512x4096 .f32) (p q : Fin 512) :
    k0_pay1 (F := Ideal) x0 x1 (ix2 p q) = ∑ k : Fin 4096, x0 (ix2 p k) * x1 (ix2 q k) := by
  unfold k0_pay1
  refine (congrFun (shapeCast_self _ _) (ix2 p q)).trans ?_
  exact Cert.LibRowDot.matmul_zero_rr (M := 512) (K := 4096) (N := 512) dot_S512x4096_S512x4096_S512x512_1_1_0_0_n_n rfl rfl lhs_row
    (fun i q => dot_S512x4096_S512x4096_S512x512_1_1_0_0_n_n.lhsIdx_val_of_single rfl i q) rhs_row
    (fun i q => dot_S512x4096_S512x4096_S512x512_1_1_0_0_n_n.rhsIdx_val_of_single rfl i q) none _ _ p q

/-- The sum term at (p, q): v(p, q) plus the bias row at (0, q). -/
theorem sum_rc (v : Vec Ideal S512x512 .f32) (row : Vec Ideal S1x512 .f32) (p q : Fin 512) :
    k0_pay2 (F := Ideal) v row (ix2 p q) = v (ix2 p q) + row (ix2 (0 : Fin 1) q) := by
  unfold k0_pay2
  exact congrArg (v (ix2 p q) + ·) (Cert.LibRowDot.rowDown_rc (M := 512) (N := 512) row _ _ p q)

end Cert.KernelIdeal.Payload

end
-- ==== Proof.Blocks.lean ====
/-
  Where each window's block sits in its array, at grid point t of the 8 × 8 grid (t = 8·i + j, i the batch tile,
  j the repeat tile), read at an entry, over the extended reals:

    the x block is rows 512·i … 512·i + 511 of x, all 4096 columns;
    the w block is all of w at every point;
    the bias block is columns 512·j … 512·j + 511 of the bias seen as one row, and that row is the bias vector itself
    (the host only re-views the vector [4096] as [1, 4096] before the launch).
-/
import proofs.«165146_j57741540327891_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Blocks

open Cert.KernelIdeal Cert.KernelIdeal.Gen

variable (m : (ℓ : Loc nD τ sig) → Buf (Elt Ideal) ℓ)

/-- The four index maps over the grid: point t is batch tile t / 8 and repeat tile t mod 8. -/
theorem tiles : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- Row 512·(n / 8) + p of x, for a point n of the grid and a row p of the block. -/
abbrev rowOf (n : ℕ) (hn : n < 64) (p : Fin 512) : Fin 4096 := ⟨512 * (n / 8) + p.val, by have := p.isLt; omega⟩

/-- Column 512·(n mod 8) + q of the result, for a point n of the grid and a column q of the block. -/
abbrev colOf (n : ℕ) (q : Fin 512) : Fin 4096 := ⟨512 * (n % 8) + q.val, by have := q.isLt; omega⟩

theorem lt64 (t : Fin cfg0.N) : t.val < 64 := lt_of_lt_of_eq t.isLt (show cfg0.N = 64 from N_0)

/-- The x block at point t, entry (p, k): x at (512·(t / 8) + p, k). -/
theorem xblock_rc (c : Dev nD) (t : Fin cfg0.N) (p : Fin 512) (k : Fin 4096) :
    (iblk m c 0 t : Vec Ideal S512x4096 .f32) (ix2 p k)
      = m ((c : Thread nD τ).loc main_arg0) (ix2 (rowOf t.val (lt64 t) p) k) := by
  obtain ⟨e0, e1, -⟩ := tiles t
  unfold iblk
  rw [View.read_apply]
  refine (congrFun (V_main_arg0 m c) _).trans (congrArg _ (funext fun a => Fin.ext ?_))
  match a with
  | ⟨0, _⟩ => show win0_0.index t (0 : Fin 2) * 512 + 1 * p.val = 512 * (t.val / 8) + p.val; omega
  | ⟨1, _⟩ => show win0_0.index t (1 : Fin 2) * 4096 + 1 * k.val = k.val; omega

/-- The w block at any point, entry (q, k): w at (q, k). -/
theorem wblock_rc (c : Dev nD) (t : Fin cfg0.N) (q : Fin 512) (k : Fin 4096) :
    (iblk m c 1 t : Vec Ideal S512x4096 .f32) (ix2 q k) = m ((c : Thread nD τ).loc main_arg1) (ix2 q k) := by
  obtain ⟨-, -, e0, e1, -⟩ := tiles t
  unfold iblk
  rw [View.read_apply]
  refine (congrFun (V_main_arg1 m c) _).trans (congrArg _ (funext fun a => Fin.ext ?_))
  match a with
  | ⟨0, _⟩ => show win0_1.index t (0 : Fin 2) * 512 + 1 * q.val = q.val; omega
  | ⟨1, _⟩ => show win0_1.index t (1 : Fin 2) * 4096 + 1 * k.val = k.val; omega

/-- What the region finds in the bias row's array: the bias vector re-viewed as one row. -/
theorem biasRow (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- The bias block at point t, entry (0, q): the bias vector at 512·(t mod 8) + q. -/
theorem bblock_rc (c : Dev nD) (t : Fin cfg0.N) (q : Fin 512) :
    (iblk m c 2 t : Vec Ideal S1x512 .f32) (ix2 (0 : Fin 1) q)
      = m ((c : Thread nD τ).loc main_arg2) (ix1 (colOf t.val q)) := by
  obtain ⟨-, -, -, -, e0, e1, -⟩ := tiles t
  unfold iblk
  rw [View.read_apply]
  refine (congrFun (biasRow m c) _).trans ?_
  refine (congrArg _ (?_ : _ = ix2 (0 : Fin 1) (colOf t.val q))).trans (shapeCast_a_1a_apply _ _ 0 (colOf t.val q))
  funext a
  apply Fin.ext
  match a with
  | ⟨0, _⟩ => show win0_2.index t (0 : Fin 2) * 1 + 1 * 0 = 0; omega
  | ⟨1, _⟩ => show win0_2.index t (1 : Fin 2) * 512 + 1 * q.val = 512 * (t.val % 8) + q.val; omega

end Cert.KernelIdeal.Blocks

end
-- ==== Proof.Spec.lean ====
/-
  The function both programs compute, entry by entry, over the extended reals.

  x is a [4096, 4096] matrix, w a [512, 4096] matrix, b a vector of 4096 entries. The small product
  y(r, s) = Σ_k x(r, k) · w(s, k) is a [4096, 512] matrix (both operands are contracted along their second
  axis); the result repeats it eight times side by side and adds b along the rows:
      result(r, c) = y(r, c mod 512) + b(c).
-/
import Idealize.ShloMosaic.PureOps.Ideal
import Idealize.ShloMosaic.Lib.ValueIdx

noncomputable section

namespace Cert.Spec

open Idealize.ShloMosaic Idealize.ShloMosaic.ValueIdx

/-- A column of the wide result, folded back to a column of the small product: c ↦ c mod 512. -/
abbrev fold (c : Fin 4096) : Fin 512 := ⟨c.val % 512, Nat.mod_lt _ (by decide)⟩

/-- The small product's entry (r, s): the sum over k of x(r, k) · w(s, k). -/
def small (x : (⟨2, ![4096, 4096]⟩ : Shape).Idx → EReal) (w : (⟨2, ![512, 4096]⟩ : Shape).Idx → EReal)
    (r : Fin 4096) (s : Fin 512) : EReal :=
  ∑ k : Fin 4096, x (ix2 r k) * w (ix2 s k)

/-- The result's entry (r, c): the small product at (r, c mod 512), plus b(c). -/
def tiled (x : (⟨2, ![4096, 4096]⟩ : Shape).Idx → EReal) (w : (⟨2, ![512, 4096]⟩ : Shape).Idx → EReal)
    (b : (⟨1, ![4096]⟩ : Shape).Idx → EReal) : (⟨2, ![4096, 4096]⟩ : Shape).Idx → EReal :=
  fun i => small x w ⟨(i 0).val, (i 0).isLt⟩ (fold ⟨(i 1).val, (i 1).isLt⟩) + b (ix1 (n := 4096) ⟨(i 1).val, (i 1).isLt⟩)

theorem tiled_apply (x : (⟨2, ![4096, 4096]⟩ : Shape).Idx → EReal) (w : (⟨2, ![512, 4096]⟩ : Shape).Idx → EReal)
    (b : (⟨1, ![4096]⟩ : Shape).Idx → EReal) (r c : Fin 4096) :
    tiled x w b (ix2 r c) = small x w r (fold c) + b (ix1 c) := rfl

end Cert.Spec

end
-- ==== Proof.Carried.lean ====
/-
  What the scratch buffer and the output block hold after each grid point, entry by entry.

  Point t = 8·i + j. At j = 0 the body fills the scratch with the product of x's row block i by wᵀ; at j > 0 it leaves
  the scratch alone. So after EVERY point t the scratch entry (p, q) is the small product at (512·i + p, q) — by
  induction on t, the step from t − 1 to t staying inside batch tile i when j > 0. The output block after point t is
  the scratch plus the bias block j along the rows: entry (p, q) is the small product at (512·i + p, q) plus
  b(512·j + q), which is the specification at (512·i + p, 512·j + q).
-/
import proofs.«165146_j57741540327891_2_alg».proof.Proof.Body
import proofs.«165146_j57741540327891_2_alg».proof.Proof.Payload
import proofs.«165146_j57741540327891_2_alg».proof.Proof.Blocks
import proofs.«165146_j57741540327891_2_alg».proof.Proof.Spec

noncomputable section

open Idealize.ShloMosaic Idealize.ShloMosaic.TcCoe Idealize.SL.Sem Idealize.ShloMosaic.ValueIdx

namespace Cert.KernelIdeal.Carried

open Cert.KernelIdeal Cert.KernelIdeal.Gen Cert.KernelIdeal.Blocks

/-! ## After a point, as terms of the point's blocks (any float instance) -/

section AnyInstance

variable {F : FTy → Type} [FloatOps F]
variable (m : (ℓ : Loc nD τ sig) → Buf (Elt F) ℓ)

/-- After a point with j = 0 the scratch is the product term of the point's x and w blocks. -/
theorem scratch_first (c : Dev nD) (t : Fin cfg0.N) (h0 : t.val % 8 = 0) :
    (outsAt0 m c t.val t.isLt).2 = k0_pay1 (iblk m c 0 t) (iblk m c 1 t) := by
  rw [outsAt0_A m c t h0]
  dsimp only
  exact Body.scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- After a point with j > 0 the scratch is what the point before left. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- After a point with j = 0 the output block is the sum term of that product and the point's bias block. -/
theorem out_first (c : Dev nD) (t : Fin cfg0.N) (h0 : t.val % 8 = 0) :
    (outsAt0 m c t.val t.isLt).1 = k0_pay2 (k0_pay1 (iblk m c 0 t) (iblk m c 1 t)) (iblk m c 2 t) := by
  rw [outsAt0_A m c t h0]
  dsimp only
  exact Body.out_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- After a point with j > 0 the output block is the sum term of what the point before left in the scratch and the
    point's bias block. -/
theorem out_later (c : Dev nD) (t : Fin cfg0.N) (h0 : ¬t.val % 8 = 0) :
    (outsAt0 m c t.val t.isLt).1
      = k0_pay2 (outsAt0 m c (t.val - 1) (Nat.lt_of_le_of_lt (Nat.sub_le _ _) t.isLt)).2 (iblk m c 2 t) := by
  rw [outsAt0_B m c t h0]
  dsimp only
  exact Body.out_later (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2

end AnyInstance

/-! ## After a point, entry by entry, over the extended reals -/

variable (m : (ℓ : Loc nD τ sig) → Buf (Elt Ideal) ℓ)

theorem lt64' {n : ℕ} (h : n < cfg0.N) : n < 64 := lt_of_lt_of_eq h (show cfg0.N = 64 from N_0)

/-- At a point with j = 0 the scratch entry (p, q) is the small product at (512·i + p, q). -/
theorem scratch_first_rc (c : Dev nD) (t : Fin cfg0.N) (h0 : t.val % 8 = 0) (p q : Fin 512) :
    (outsAt0 m c t.val t.isLt).2 (ix2 p q)
      = Cert.Spec.small (m ((c : Thread nD τ).loc main_arg0)) (m ((c : Thread nD τ).loc main_arg1)) (rowOf t.val (lt64 t) p) q := by
  refine (congrFun (scratch_first m c t h0) (ix2 p q)).trans ?_
  refine (Payload.product_rc (iblk m c 0 t) (iblk m c 1 t) p q).trans ?_
  unfold Cert.Spec.small
  exact Finset.sum_congr rfl fun k _ => congrArg₂ (· * ·) (xblock_rc m c t p k) (wblock_rc m c t q k)

/-- After every point the scratch entry (p, q) is the small product at (512·i + p, q), i the point's batch tile. -/
theorem scratch_rc (c : Dev nD) : ∀ (n : ℕ) (h : n < cfg0.N) (p q : Fin 512),
    (outsAt0 m c n h).2 (ix2 p q)
      = Cert.Spec.small (m ((c : Thread nD τ).loc main_arg0)) (m ((c : Thread nD τ).loc main_arg1)) (rowOf n (lt64' h) p) q
  | 0, h, p, q => scratch_first_rc m c ⟨0, h⟩ rfl p q
  | n + 1, h, p, q => by
    by_cases h0 : (n + 1) % 8 = 0
    · exact scratch_first_rc m c ⟨n + 1, h⟩ h0 p q
    · refine (congrFun (scratch_later m c ⟨n + 1, h⟩ h0) (ix2 p q)).trans ?_
      refine (scratch_rc c n (Nat.lt_of_succ_lt h) p q).trans ?_
      have e : rowOf n (lt64' (Nat.lt_of_succ_lt h)) p = rowOf (n + 1) (lt64' h) p :=
        Fin.ext (by show 512 * (n / 8) + p.val = 512 * ((n + 1) / 8) + p.val; omega)
      rw [e]

/-- A column 512·j + q of the result folds back to column q of the small product. -/
theorem fold_colOf (n : ℕ) (q : Fin 512) : Cert.Spec.fold (colOf n q) = q :=
  Fin.ext (by have := q.isLt; show (512 * (n % 8) + q.val) % 512 = q.val; omega)

/-- After every point the output block's entry (p, q) is the specification at (512·i + p, 512·j + q). -/
theorem out_rc (c : Dev nD) (t : Fin cfg0.N) (p q : Fin 512) :
    (outsAt0 m c t.val t.isLt).1 (ix2 p q)
      = Cert.Spec.tiled (m ((c : Thread nD τ).loc main_arg0)) (m ((c : Thread nD τ).loc main_arg1))
          (m ((c : Thread nD τ).loc main_arg2)) (ix2 (rowOf t.val (lt64 t) p) (colOf t.val q)) := by
  rw [Cert.Spec.tiled_apply, fold_colOf]
  by_cases h0 : t.val % 8 = 0
  · refine (congrFun (out_first m c t h0) (ix2 p q)).trans ?_
    refine (Payload.sum_rc (k0_pay1 (iblk m c 0 t) (iblk m c 1 t)) (iblk m c 2 t) p q).trans ?_
    refine congrArg₂ (· + ·) ?_ (bblock_rc m c t q)
    exact (congrFun (scratch_first m c t h0) (ix2 p q)).symm.trans (scratch_rc m c t.val t.isLt p q)
  · refine (congrFun (out_later m c t h0) (ix2 p q)).trans ?_
    refine (Payload.sum_rc (outsAt0 m c (t.val - 1) (Nat.lt_of_le_of_lt (Nat.sub_le _ _) t.isLt)).2 (iblk m c 2 t) p q).trans ?_
    refine congrArg₂ (· + ·) ?_ (bblock_rc m c t q)
    exact (congrFun (scratch_later m c t h0) (ix2 p q)).symm.trans (scratch_rc m c t.val t.isLt p q)

end Cert.KernelIdeal.Carried

end
-- ==== Proof.Result.lean ====
/-
  The kernel's result array, after the run, is the specification of the argument arrays.

  Point t = 8·i + j writes back its output block to rows 512·i … and columns 512·j … of the result; after the point
  that block holds the specification at exactly those entries, so what the point writes back is the specification
  read through the point's block. The 64 blocks tile the [4096, 4096] result (entry (r, c) lies in the block of the
  point 8·(r / 512) + c / 512), so the array ends holding the specification everywhere.
-/
import proofs.«165146_j57741540327891_2_alg».proof.Proof.Carried
import proofs.«165146_j57741540327891_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- The specification of the argument arrays as launched, on core c. -/
abbrev spec (c : Dev nD) : S4096x4096.Idx → EReal :=
  Cert.Spec.tiled (m ((c : Thread nD τ).loc main_arg0)) (m ((c : Thread nD τ).loc main_arg1)) (m ((c : Thread nD τ).loc main_arg2))

/-- What point t writes back is the specification read through the point's block of the result. -/
theorem written_back (c : Dev nD) (t : Fin cfg0.N) :
    (dats m 0 c).flushed 3 t = ((cfg0.win 3).blk t).view.read (Elt Ideal) (spec m c) := by
  rw [Cert.KernelIdeal.Value.flushed3]
  obtain ⟨-, -, -, -, -, -, e0, e1⟩ := tiles t
  funext j
  rw [View.read_apply]
  show (outsAt0 m c t.val t.isLt).1 j = spec m c (((cfg0.win 3).blk t).view.emb j)
  have hj0 : (j 0).val < 512 := (j 0).isLt
  have hj1 : (j 1).val < 512 := (j 1).isLt
  have ej : (outsAt0 m c t.val t.isLt).1 j = (outsAt0 m c t.val t.isLt).1 (ix2 (⟨(j 0).val, hj0⟩ : Fin 512) (⟨(j 1).val, hj1⟩ : Fin 512)) :=
    congrArg _ (funext fun a => match a with | ⟨0, _⟩ => rfl | ⟨1, _⟩ => rfl)
  refine ej.trans ((Carried.out_rc m c t ⟨(j 0).val, hj0⟩ ⟨(j 1).val, hj1⟩).trans (congrArg _ (funext fun a => Fin.ext ?_)))
  match a with
  | ⟨0, _⟩ => show 512 * (t.val / 8) + (j 0).val = win0_3.index t (0 : Fin 2) * 512 + 1 * (j 0).val; omega
  | ⟨1, _⟩ => show 512 * (t.val % 8) + (j 1).val = win0_3.index t (1 : Fin 2) * 512 + 1 * (j 1).val; omega

/-- An entry of the result lies in point t's block iff each coordinate lies in the block's range on its axis. -/
theorem in_block (t : Fin cfg0.N) (i : S4096x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v1).slice (win0_3.rect t)).set ↔ _
  rw [View.set_slice_whole, Rect.mem_set_unit]
  exact Iff.rfl

/-- Every entry (r, c) of the result lies in the block of the point 8·(r / 512) + c / 512. -/
theorem tiling (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  let t : Fin cfg0.N := ⟨8 * ((i 0).val / 512) + (i 1).val / 512, by rw [hN]; omega⟩
  have ht : t.val = 8 * ((i 0).val / 512) + (i 1).val / 512 := rfl
  obtain ⟨-, -, -, -, -, -, e0, e1⟩ := tiles t
  refine ⟨t, flush0_3 t, ?_⟩
  rw [in_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The result array after the run is the specification. -/
theorem final (c : Dev nD) : (dats m 0 c).arrAt 3 cfg0.N = spec m c :=
  (dats m 0 c).arrAt_eq_of_cover 3 (spec m c) (fun t _ => written_back m c t) tiling

/-- Every weakly fair execution of the kernel's program terminates with the result array at the specification of the
    argument arrays, and the argument arrays unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Result

end
-- ==== Proof.Reference.lean ====
/-
  The reference's result, stage by stage, is the specification.

  The reference forms the small product y = x · wᵀ of [4096, 512], views it as [1, 4096, 1, 512], repeats it along
  the third axis to [1, 4096, 8, 512] and flattens that to [4096, 4096]: by row-major position the entry (r, c) of the
  flattened array is y(r, c mod 512). The bias vector is viewed as one row and repeated down the rows: entry (r, c)
  is b(c). Their sum at (r, c) is y(r, c mod 512) + b(c).
-/
import proofs.«165146_j57741540327891_2_alg».proof.Proof.Gen.ReferenceIdeal.Read
import proofs.«165146_j57741540327891_2_alg».proof.Proof.Spec

noncomputable section

open Idealize.ShloMosaic Idealize.ShloMosaic.ValueIdx

namespace Cert.ReferenceIdeal.RefValue

open Cert.ReferenceIdeal Cert.ReferenceIdeal.Read

/-- Through flatten, repeat and view, the product's left operand is read at row r. -/
theorem left_index (r c k : Fin 4096) :
    lidx_main_v0 (idx_main_v1 (idx_main_v2 (idx_main_v3 (ix2 r c)))) k = ix2 r k := by
  have hr := r.isLt
  have hc := c.isLt
  funext a
  apply Fin.ext
  match a with
  | ⟨0, _⟩ =>
    show (((0 * 4096 + (r.val * 4096 + c.val) / 4096 % 4096) * 1 + 0) * 512 + (r.val * 4096 + c.val) % 512) / 512 = r.val
    omega
  | ⟨1, _⟩ => rfl

/-- Through flatten, repeat and view, the product's right operand is read at row c mod 512. -/
theorem right_index (r c k : Fin 4096) :
    ridx_main_v0 (idx_main_v1 (idx_main_v2 (idx_main_v3 (ix2 r c)))) k = ix2 (Cert.Spec.fold c) k := by
  have hr := r.isLt
  have hc := c.isLt
  funext a
  apply Fin.ext
  match a with
  | ⟨0, _⟩ =>
    show (((0 * 4096 + (r.val * 4096 + c.val) / 4096 % 4096) * 1 + 0) * 512 + (r.val * 4096 + c.val) % 512) % 512 = c.val % 512
    omega
  | ⟨1, _⟩ => rfl

/-- The bias, viewed as one row and repeated down the rows, is read at c. -/
theorem bias_index (r c : Fin 4096) : idx_main_v4 (idx_main_v5 (ix2 r c)) = ix1 c := by
  funext a
  match a with
  | ⟨0, _⟩ => rfl

/-- The reference's last stage is the specification, entry by entry. -/
theorem reference_is_tiled (x : S4096x4096.Idx → EReal) (w : S512x4096.Idx → EReal) (b : S4096.Idx → EReal) :
    val_main_v6 (F := Ideal) x w b = Cert.Spec.tiled x w b := by
  funext i
  obtain ⟨r, c, rfl⟩ : ∃ (r c : Fin 4096), i = ix2 r c := ⟨i 0, i 1, eq_ix2 i⟩
  rw [val_main_v6_apply, val_main_v3_apply, val_main_v2_apply, val_main_v1_apply, val_main_v0_apply,
    val_main_v5_apply, val_main_v4_apply, Cert.Spec.tiled_apply]
  unfold Cert.Spec.small
  simp only [left_index, right_index, bias_index]
  rfl

end Cert.ReferenceIdeal.RefValue

end
-- ==== Proof.lean ====
/-
  A fully connected layer with shared weights: x is [4096, 4096], w is [512, 4096], b has 4096 entries, and

      result(r, c) = Σ_k x(r, k) · w(c mod 512, k) + b(c)          (r, c < 4096).

  The kernel walks an 8 × 8 grid of [512, 512] output blocks. At the first block of each block row it forms the
  [512, 512] product of 512 rows of x by wᵀ into a zero accumulator and keeps it in a scratch buffer; at every block
  of that row it adds the matching 512 entries of b to the kept product and writes the block back. The reference
  forms the whole [4096, 512] product once, repeats it eight times side by side and adds b along the rows.

  Over the extended reals both are the function above: a narrowing of float format changes no value, a product into a
  zero accumulator is the plain sum of products, and the repeat-and-flatten reads the small product at column
  c mod 512. Only commutative-monoid facts about sums are used, so the finiteness of the inputs is never opened.

  The three frames are the kernel's generated frame runs and the reference's generated run; the idealization rewrote
  nothing, so the sanctioned-idealization conjunct is trivial; the value conjunct puts the kernel's run (result array
  = specification) beside the reference's run (last stage = specification).
-/
import proofs.«165146_j57741540327891_2_alg».proof.Defs
import proofs.«165146_j57741540327891_2_alg».proof.Proof.Gen.Kernel
import proofs.«165146_j57741540327891_2_alg».proof.Proof.Gen.Kernel.Skeleton
import proofs.«165146_j57741540327891_2_alg».proof.Proof.Gen.Kernel.Launch
import proofs.«165146_j57741540327891_2_alg».proof.Proof.Gen.Kernel.Points
import proofs.«165146_j57741540327891_2_alg».proof.Proof.Gen.Kernel.Frame
import proofs.«165146_j57741540327891_2_alg».proof.Proof.Gen.KernelIdeal
import proofs.«165146_j57741540327891_2_alg».proof.Proof.Gen.KernelIdeal.Skeleton
import proofs.«165146_j57741540327891_2_alg».proof.Proof.Gen.KernelIdeal.Launch
import proofs.«165146_j57741540327891_2_alg».proof.Proof.Gen.KernelIdeal.Points
import proofs.«165146_j57741540327891_2_alg».proof.Proof.Gen.KernelIdeal.Frame
import proofs.«165146_j57741540327891_2_alg».proof.Proof.Gen.ReferenceIdeal
import proofs.«165146_j57741540327891_2_alg».proof.Proof.Gen.Pre_finite_inputs
import proofs.«165146_j57741540327891_2_alg».proof.Proof.Gen.KernelIdeal.Value
import proofs.«165146_j57741540327891_2_alg».proof.Proof.Gen.ReferenceIdeal.Run
import proofs.«165146_j57741540327891_2_alg».proof.Proof.Gen.ReferenceIdeal.Read
import proofs.«165146_j57741540327891_2_alg».proof.Proof.Result
import proofs.«165146_j57741540327891_2_alg».proof.Proof.Reference
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- So does the reference: its run, with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on x, w and b, both programs end with the result array at the specification of those
    arguments: the kernel by its blocks, the reference stage by stage. -/
theorem same_values : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_is_tiled,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, same_values⟩

end Cert.Proof

end
